-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x32 : Shape := ⟨2, ![8192, 32]⟩
abbrev S8 : Shape := ⟨1, ![8]⟩
abbrev S8x1024x1024 : Shape := ⟨3, ![8, 1024, 1024]⟩
abbrev S8x1024x512 : Shape := ⟨3, ![8, 1024, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn_part1 {F : FTy → Type} [FloatOps F] (main_v13 : IVec S_ 1) (main_v16 : IVec S8x1024x512 1) : IVec S_ 1 :=
  let main_c_5 : IVec S_ 1 := constantI S_ 1 1#1
  let main_v17 : IVec S_ 1 := (fun x v => Host.reduce IntOp.andi x v reducesTo_S8x1024x512_S_d0_1_2 h_S_) main_v16 main_c_5
  let main_v18 : IVec S_ 1 := andi main_v13 main_v17
  main_v18

def fn {F : FTy → Type} [FloatOps F] (main_arg0 : FVec F S8192x1024 .f32) (main_arg1 : FVec F S8192x32 .f32) (main_arg2 : IVec S8 32) (main_arg3 : IVec S8 32) (main_arg4 : FVec F S8x1024x1024 .f32) (main_arg5 : FVec F S8x1024x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8x1024x1024 .f32 := Host.absf main_arg4
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x512 .f32 := Host.absf main_arg5
  let main_cst_4 : FVec F S_ .f32 := constant S_ .f32 0x7F800000#32
  let main_v15 : FVec F S8x1024x512 .f32 := broadcastInDim S8x1024x512 ![] bcast_S_S8x1024x512 main_cst_4
  let main_v16 : IVec S8x1024x512 1 := cmpf .olt main_v14 main_v15
  fn_part1 (F := F) main_v13 main_v16
-- ==== Kernel.lean ====
abbrev S8192x1024 : Shape := ⟨2, ![8192, 1024]⟩
abbrev S8192x32 : Shape := ⟨2, ![8192, 32]⟩
abbrev S8 : Shape := ⟨1, ![8]⟩
abbrev S8x1024x1024 : Shape := ⟨3, ![8, 1024, 1024]⟩
abbrev S8x1024x512 : Shape := ⟨3, ![8, 1024, 512]⟩
abbrev S8x512x1024 : Shape := ⟨3, ![8, 512, 1024]⟩
abbrev S1024x1024 : Shape := ⟨2, ![1024, 1024]⟩
abbrev S1024x32 : Shape := ⟨2, ![1024, 32]⟩
abbrev S1x1024x1024 : Shape := ⟨3, ![1, 1024, 1024]⟩
abbrev S1x512x1024 : Shape := ⟨3, ![1, 512, 1024]⟩
abbrev S1024x32x1 : Shape := ⟨3, ![1024, 32, 1]⟩
abbrev S1024x32x32 : Shape := ⟨3, ![1024, 32, 32]⟩
abbrev S1024x512 : Shape := ⟨2, ![1024, 512]⟩
abbrev S512x1024 : Shape := ⟨2, ![512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8, .i32⟩
  | .hbm, ⟨3, _⟩ => ⟨S8, .i32⟩
  | .hbm, ⟨4, _⟩ => ⟨S8x1024x1024, .f32⟩
  | .hbm, ⟨5, _⟩ => ⟨S8x1024x512, .f32⟩
  | .hbm, ⟨6, _⟩ => ⟨S8192x1024, .bf16⟩
  | .hbm, ⟨7, _⟩ => ⟨S8192x32, .bf16⟩
  | .hbm, ⟨8, _⟩ => ⟨S8x1024x1024, .f32⟩
  | .hbm, ⟨9, _⟩ => ⟨S8x1024x1024, .bf16⟩
  | .hbm, ⟨10, _⟩ => ⟨S8x512x1024, .f32⟩
  | .hbm, ⟨11, _⟩ => ⟨S8x512x1024, .bf16⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x32, .bf16⟩
  | .local _ .vmem, ⟨3, _⟩ => ⟨S1024x32, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S8x1024x1024_S8x1024x1024_0_2_1 : S8x1024x1024.Transposes [0, 2, 1] S8x1024x1024
  transposes_S8x1024x512_S8x512x1024_0_2_1 : S8x1024x512.Transposes [0, 2, 1] S8x512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S1024x32_S1024x32x1 : S1024x32.ShapeCasts S1024x32x1
  shapeCasts_S1024x32x1_S1024x32x1 : S1024x32x1.ShapeCasts S1024x32x1
  broadcasts_S1024x32x1_S1024x32x32 : S1024x32x1.Broadcasts S1024x32x32
  shapeCasts_S1024x32x32_S1024x1024 : S1024x32x32.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x1024_o0_0_S1024x512 : S1024x1024.Slices ![0, 0] S1024x512
  slices_S1024x1024_o0_512_S1024x512 : S1024x1024.Slices ![0, 512] S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  dot_S1024x1024_S1024x1024_S1024x1024_1_0_0_1_n_n_wf : DotDims.WF S1024x1024 S1024x1024 S1024x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S8192x32.size a
  hwx0_1 : ∀ i : grid0.Coords, EltTy.bits .bf16 = 32 ∨ (Rect.block (s := S8192x32) S1024x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .bf16 = 32 ∨ (Rect.block (s := S8x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x512x1024.size a
  hwx0_3 : ∀ i : grid0.Coords, EltTy.bits .bf16 = 32 ∨ (Rect.block (s := S8x512x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x32 : Shape := ⟨2, ![8192, 32]⟩
abbrev S8 : Shape := ⟨1, ![8]⟩
abbrev S8x1024x1024 : Shape := ⟨3, ![8, 1024, 1024]⟩
abbrev S8x1024x512 : Shape := ⟨3, ![8, 1024, 512]⟩
abbrev S8192x32x32 : Shape := ⟨3, ![8192, 32, 32]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8, .i32⟩
  | .hbm, ⟨3, _⟩ => ⟨S8, .i32⟩
  | .hbm, ⟨4, _⟩ => ⟨S8x1024x1024, .f32⟩
  | .hbm, ⟨5, _⟩ => ⟨S8x1024x512, .f32⟩
  | .hbm, ⟨6, _⟩ => ⟨S8192x32x32, .f32⟩
  | .hbm, ⟨7, _⟩ => ⟨S8192x1024, .f32⟩
  | .hbm, ⟨8, _⟩ => ⟨S8192x1024, .f32⟩
  | .hbm, ⟨9, _⟩ => ⟨S8x1024x1024, .f32⟩
  | .hbm, ⟨10, _⟩ => ⟨S8x1024x1024, .f32⟩
  | .hbm, ⟨11, _⟩ => ⟨S8x1024x512, .f32⟩
  | .hbm, ⟨12, _⟩ => ⟨S8x1024x512, .f32⟩
  | .hbm, ⟨13, _⟩ => ⟨S8x1024x512, .f32⟩
  | .hbm, ⟨14, _⟩ => ⟨S8x1024x512, .f32⟩
  | .hbm, ⟨15, _⟩ => ⟨S_, .f32⟩
  | .hbm, ⟨16, _⟩ => ⟨S8x1024x512, .f32⟩
  | .hbm, ⟨17, _⟩ => ⟨S8x1024x512, .f32⟩
  | .hbm, ⟨18, _⟩ => ⟨S_, .f32⟩
  | .hbm, ⟨19, _⟩ => ⟨S8x1024x512, .f32⟩
  | .hbm, ⟨20, _⟩ => ⟨S8x1024x512, .f32⟩
  | .hbm, ⟨21, _⟩ => ⟨S8x1024x512, .f32⟩
  | .hbm, ⟨22, _⟩ => ⟨S8x1024x512, .f32⟩
  | .hbm, ⟨23, _⟩ => ⟨S8x1024x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]

class Facts₀ : Prop where
  bcast_S8192x32_S8192x32x32_0_1 : S8192x32.BroadcastsInDim S8192x32x32 (![0, 1] : Fin 2 → Fin S8192x32x32.rank)
  shapeCasts_S8192x32x32_S8192x1024 : S8192x32x32.ShapeCasts S8192x1024
  shapeCasts_S8192x1024_S8x1024x1024 : S8192x1024.ShapeCasts S8x1024x1024
  slices_S8x1024x1024_S8x1024x512_0_0_0 : S8x1024x1024.Slices ![0, 0, 0] S8x1024x512
  slices_S8x1024x1024_S8x1024x512_0_0_512 : S8x1024x1024.Slices ![0, 0, 512] S8x1024x512
  bcast_S_S8x1024x512 : S_.BroadcastsInDim S8x1024x512 (![] : Fin 0 → Fin S8x1024x512.rank)
  shapeCasts_S8x1024x1024_S8192x1024 : S8x1024x1024.ShapeCasts S8192x1024
  dot_S8x1024x1024_S8x1024x1024_S8x1024x1024_2_2_1_1_0_0_wf : DotDims.WF S8x1024x1024 S8x1024x1024 S8x1024x1024 [2] [2] [1] [1] [0] [0]
  dot_S8x1024x512_S8x1024x512_S8x1024x1024_2_2_1_1_0_0_wf : DotDims.WF S8x1024x512 S8x1024x512 S8x1024x1024 [2] [2] [1] [1] [0] [0]

variable [Facts₀]

def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x512_S8x1024x512_S8x1024x1024_2_2_1_1_0_0 : DotDims S8x1024x512 S8x1024x512 S8x1024x1024 where
  lhsContracting := [2]
  rhsContracting := [2]
  lhsNonContracting := [1]
  rhsNonContracting := [1]
  lhsBatch := [0]
  rhsBatch := [0]
  wf := dot_S8x1024x512_S8x1024x512_S8x1024x1024_2_2_1_1_0_0_wf

class Facts : Prop extends Facts₀ where

variable [Facts]
-- ==== Proof.Spec.lean ====
/-
  The expert feed-forward, as ONE function of the four float arrays, index by index, on the extended reals.
  Tokens are laid out expert by expert: rows 1024·e … 1024·e + 1023 of the activations belong to expert e.
  • the dequantized activation at (t, d) is x[t, d] · s[t, d / 32] (one scale per 32 consecutive columns);
  • the up projection of row r of expert e at column j is Σ_d deq[1024·e + r, d] · w13[e, j, d];
  • the gated hidden value at h is up[h] · logistic(up[h]) · up[512 + h], with logistic a = 1 / (1 + e^(-a));
  • the result at column c is Σ_h gated[h] · w2[e, c, h].
  Both programs compute exactly these sums in exactly this order of multiplication, so no law of the extended
  reals beyond reading each side at an index is needed to join them.
-/
import Idealize.ShloMosaic.PureOps.Ideal
import Idealize.ShloMosaic.Lib.ValueIdx

noncomputable section

namespace Cert.ExpertFFN

open Idealize.ShloMosaic Idealize.ShloMosaic.ValueIdx

/-- The row of the token array that holds row `r` of expert `e`. -/
def tok (e : Fin 8) (r : Fin 1024) : Fin 8192 := ⟨e.val * 1024 + r.val, by have := e.isLt; have := r.isLt; omega⟩

/-- The scale block of column `d`: 32 consecutive columns share one scale. -/
def sblk (d : Fin 1024) : Fin 32 := ⟨d.val / 32, by have := d.isLt; omega⟩

/-- The first half of the up projection's columns. -/
def lo (h : Fin 512) : Fin 1024 := ⟨h.val, by have := h.isLt; omega⟩

/-- The second half of the up projection's columns. -/
def hi (h : Fin 512) : Fin 1024 := ⟨512 + h.val, by have := h.isLt; omega⟩

variable (x : (⟨2, ![8192, 1024]⟩ : Shape).Idx → EReal) (s : (⟨2, ![8192, 32]⟩ : Shape).Idx → EReal)
  (w13 : (⟨3, ![8, 1024, 1024]⟩ : Shape).Idx → EReal) (w2 : (⟨3, ![8, 1024, 512]⟩ : Shape).Idx → EReal)

/-- The dequantized activation: the stored value times its block's scale. -/
def deq (t : Fin 8192) (d : Fin 1024) : EReal := x (ix2 t d) * s (ix2 t (sblk d))

/-- The up projection of row `r` of expert `e`, at column `j`. -/
def up (e : Fin 8) (r : Fin 1024) (j : Fin 1024) : EReal :=
  ∑ d : Fin 1024, deq x s (tok e r) d * w13 (ix3 e j d)

/-- The gated hidden value: SiLU of the first half times the second half. -/
def gated (e : Fin 8) (r : Fin 1024) (h : Fin 512) : EReal :=
  up x s w13 e r (lo h) * Ideal.logistic (up x s w13 e r (lo h)) * up x s w13 e r (hi h)

/-- The down projection of row `r` of expert `e`, at column `c`. -/
def down (e : Fin 8) (r : Fin 1024) (c : Fin 1024) : EReal :=
  ∑ h : Fin 512, gated x s w13 e r h * w2 (ix3 e c h)

/-- The whole result array: row `t` is row `t % 1024` of expert `t / 1024`. -/
def result : (⟨2, ![8192, 1024]⟩ : Shape).Idx → EReal := fun i =>
  down x s w13 w2 ⟨(i 0).val / 1024, by have : (i 0).val < 8192 := (i 0).isLt; omega⟩
    ⟨(i 0).val % 1024, Nat.mod_lt _ (by decide)⟩ (i 1)

/-- The result at the row of expert `e`'s row `r`. -/
theorem result_tok (e : Fin 8) (r : Fin 1024) (c : Fin 1024) :
    result x s w13 w2 (ix2 (tok e r) c) = down x s w13 w2 e r c := by
  have he := e.isLt; have hr := r.isLt
  unfold result
  congr 1
  · apply Fin.ext; show (e.val * 1024 + r.val) / 1024 = e.val; omega
  · apply Fin.ext; show (e.val * 1024 + r.val) % 1024 = r.val; omega

end Cert.ExpertFFN

end
-- ==== Proof.RefIsSpec.lean ====
/-
  The reference, read one operation at a time, is the specification.
  Its reshapes only regroup indices: row t of the [8192, 1024] activations is row t % 1024 of expert t / 1024, and the
  scale array, repeated 32 times along a new last axis and flattened, puts scale column d / 32 under column d.
  Its two batched contractions run over the last axis of both operands, so the weight is read at (e, j, d) and
  (e, c, h); its SiLU is spelt x · (1 / (1 + e^(-x))), which is x · logistic x.
-/
import proofs.«147050_j37014028157134_2_alg».proof.Proof.Gen.ReferenceIdeal.Read
import proofs.«147050_j37014028157134_2_alg».proof.Proof.Spec

noncomputable section

namespace Cert.ReferenceIdeal.RefValue

open Cert.ReferenceIdeal Cert.ReferenceIdeal.Read Cert.ExpertFFN
open Idealize.ShloMosaic Idealize.ShloMosaic.ValueIdx

variable (x0 : (⟨S8192x1024, .f32⟩ : BufTy).Contents (Elt Ideal)) (x1 : (⟨S8192x32, .f32⟩ : BufTy).Contents (Elt Ideal))
  (x4 : (⟨S8x1024x1024, .f32⟩ : BufTy).Contents (Elt Ideal)) (x5 : (⟨S8x1024x512, .f32⟩ : BufTy).Contents (Elt Ideal))

/-- The f32 word of 1.0 is the extended real 1. -/
theorem one_f32 : Ideal.ofBits .f32 0x3F800000#32 = 1 := IdealRules.sign_bit.ideal_onePat .f32

/-- The product of the activations with the repeated scales, at (t, d): the scale read is column d / 32. -/
theorem scaled_apply (t : Fin 8192) (d : Fin 1024) :
    val_main_v2 (F := Ideal) x0 x1 (ix2 t d) = deq x0 x1 t d := by
  have ht := t.isLt; have hd := d.isLt
  rw [val_main_v2_apply, val_main_v1_apply, val_main_v0_apply]
  unfold deq
  show x0 (ix2 t d) * x1 _ = x0 (ix2 t d) * x1 _
  congr 2
  funext a
  apply Fin.ext
  match a with
  | ⟨0, _⟩ => show (t.val * 1024 + d.val) / 1024 = t.val; omega
  | ⟨1, _⟩ => show (t.val * 1024 + d.val) / 32 % 32 = d.val / 32; omega

/-- The first contraction at (e, r, j) is the up projection. -/
theorem up_apply (e : Fin 8) (r : Fin 1024) (j : Fin 1024) :
    val_main_v4 (F := Ideal) x0 x1 x4 (ix3 e r j) = up x0 x1 x4 e r j := by
  have he := e.isLt; have hr := r.isLt
  rw [val_main_v4_apply]
  unfold up
  refine Finset.sum_congr rfl fun k _ => ?_
  have hk := k.isLt
  rw [val_main_v3_apply]
  have e1 : idx_main_v3 (lidx_main_v4 (ix3 e r j) k) = ix2 (tok e r) k := by
    funext a
    apply Fin.ext
    match a with
    | ⟨0, _⟩ => show ((e.val * 1024 + r.val) * 1024 + k.val) / 1024 = e.val * 1024 + r.val; omega
    | ⟨1, _⟩ => show ((e.val * 1024 + r.val) * 1024 + k.val) % 1024 = k.val; omega
  have e2 : ridx_main_v4 (ix3 e r j) k = ix3 e j k := by
    funext a
    apply Fin.ext
    match a with
    | ⟨0, _⟩ => rfl
    | ⟨1, _⟩ => rfl
    | ⟨2, _⟩ => rfl
  rw [e1, e2, scaled_apply]

/-- The gated product at (e, r, h): the two halves of the up projection, the first through SiLU. -/
theorem gated_apply (e : Fin 8) (r : Fin 1024) (h : Fin 512) :
    val_main_v8 (F := Ideal) x0 x1 x4 (ix3 e r h) = gated x0 x1 x4 e r h := by
  have e5 : idx_main_v5 (ix3 e r h) = ix3 e r (lo h) := by
    funext a
    apply Fin.ext
    match a with
    | ⟨0, _⟩ => rfl
    | ⟨1, _⟩ => rfl
    | ⟨2, _⟩ => rfl
  have e6 : idx_main_v6 (ix3 e r h) = ix3 e r (hi h) := by
    funext a
    apply Fin.ext
    match a with
    | ⟨0, _⟩ => rfl
    | ⟨1, _⟩ => rfl
    | ⟨2, _⟩ => rfl
  rw [val_main_v8_apply, val_main_v7_apply, val_main_call0_v5_apply, val_main_call0_v4_apply, val_main_call0_cst_0_apply,
    val_main_call0_v3_apply, val_main_call0_v2_apply, val_main_call0_cst_apply, val_main_call0_v1_apply,
    val_main_call0_v0_apply, val_main_v6_apply, val_main_v5_apply, e5, e6, up_apply, up_apply]
  unfold gated
  simp only [Ideal.ofBits_def, one_f32]
  rfl

/-- The second contraction at (e, r, c) is the down projection. -/
theorem down_apply (e : Fin 8) (r : Fin 1024) (c : Fin 1024) :
    val_main_v9 (F := Ideal) x0 x1 x4 x5 (ix3 e r c) = down x0 x1 x4 x5 e r c := by
  rw [val_main_v9_apply]
  unfold down
  refine Finset.sum_congr rfl fun k _ => ?_
  have e1 : lidx_main_v9 (ix3 e r c) k = ix3 e r k := by
    funext a
    apply Fin.ext
    match a with
    | ⟨0, _⟩ => rfl
    | ⟨1, _⟩ => rfl
    | ⟨2, _⟩ => rfl
  have e2 : ridx_main_v9 (ix3 e r c) k = ix3 e c k := by
    funext a
    apply Fin.ext
    match a with
    | ⟨0, _⟩ => rfl
    | ⟨1, _⟩ => rfl
    | ⟨2, _⟩ => rfl
  rw [e1, e2, gated_apply]

/-- The reference's result is the specification. -/
theorem result_eq : val_main_v10 (F := Ideal) x0 x1 x4 x5 = result x0 x1 x4 x5 := by
  funext i
  obtain ⟨t, c, rfl⟩ : ∃ (t : Fin 8192) (c : Fin 1024), i = ix2 t c := ⟨i 0, i 1, eq_ix2 i⟩
  have ht := t.isLt; have hc := c.isLt
  rw [val_main_v10_apply]
  have e1 : idx_main_v10 (ix2 t c) = ix3 (⟨t.val / 1024, by omega⟩ : Fin 8) (⟨t.val % 1024, Nat.mod_lt _ (by decide)⟩ : Fin 1024) c := by
    funext a
    apply Fin.ext
    match a with
    | ⟨0, _⟩ => show (t.val * 1024 + c.val) / 1048576 = t.val / 1024; omega
    | ⟨1, _⟩ => show (t.val * 1024 + c.val) / 1024 % 1024 = t.val % 1024; omega
    | ⟨2, _⟩ => show (t.val * 1024 + c.val) % 1024 = c.val; omega
  rw [e1, down_apply]
  rfl

end Cert.ReferenceIdeal.RefValue

end
-- ==== Proof.KernelPayload.lean ====
/-
  The kernel body's one stored value, read at an index.
  The body holds one expert's 1024 rows. It repeats each of the 32 scales of a row over its 32 columns (a unit axis
  added, broadcast to 32, flattened: column d falls under scale d / 32), multiplies, and contracts with the expert's
  first weight block, which arrives already transposed: entry (d, j) of the block is w13[e, j, d]. The two halves of
  that product's columns are gated (first half through x · logistic x) and contracted with the second weight block,
  entry (h, c) of which is w2[e, c, h]. Both matrix products start from a zero accumulator, so at the extended reals
  each is the plain sum over the contraction index.
-/
import proofs.«147050_j37014028157134_2_alg».proof.Proof.Gen.KernelIdeal.Skeleton
import proofs.«147050_j37014028157134_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.ExpertFFN
open Idealize.ShloMosaic Idealize.ShloMosaic.ValueIdx

/-! ## The layout steps -/

/-- The repeated scales at (r, d): the row's scale of block d / 32. -/
theorem repeat_apply (v : FVec Ideal S1024x32 .bf16) (h1 : S1024x32.ShapeCasts S1024x32)
    (h2 : S1024x32.ShapeCasts S1024x32x1) (h3 : S1024x32x1.ShapeCasts S1024x32x1)
    (h4 : S1024x32x1.Broadcasts S1024x32x32) (h5 : S1024x32x32.ShapeCasts S1024x1024) (r : Fin 1024) (d : Fin 1024) :
    shapeCast S1024x1024 (broadcastTo S1024x32x32 (shapeCast S1024x32x1 (shapeCast S1024x32x1 (shapeCast S1024x32 v h1) h2) h3) h4) h5 (ix2 r d)
      = v (ix2 r (sblk d)) := by
  have hr := r.isLt; have hd := d.isLt
  simp only [shapeCast_self]
  refine (shapeCast_apply _ h5 (ix2 r d) (ix3 r (sblk d) (⟨d.val % 32, Nat.mod_lt _ (by decide)⟩ : Fin 32)) ?_).trans ?_
  · rw [Shape.rowMajor_val_three, Shape.rowMajor_val_two]
    show (r.val * 32 + d.val / 32) * 32 + d.val % 32 = r.val * 1024 + d.val
    omega
  refine (broadcastTo_apply _ h4 (ix3 r (sblk d) (⟨d.val % 32, Nat.mod_lt _ (by decide)⟩ : Fin 32)) (ix3 r (sblk d) (0 : Fin 1)) ?_).trans ?_
  · intro a
    match a with
    | ⟨0, _⟩ => show r.val = if (1024 : Nat) = 1 then 0 else r.val; rw [if_neg (by decide)]
    | ⟨1, _⟩ => show d.val / 32 = if (32 : Nat) = 1 then 0 else d.val / 32; rw [if_neg (by decide)]
    | ⟨2, _⟩ => show 0 = if (1 : Nat) = 1 then 0 else d.val % 32; rw [if_pos rfl]
  exact shapeCast_apply _ h2 (ix3 r (sblk d) (0 : Fin 1)) (ix2 r (sblk d)) (by
    rw [Shape.rowMajor_val_two, Shape.rowMajor_val_three]
    show r.val * 32 + d.val / 32 = (r.val * 32 + d.val / 32) * 1 + 0
    omega)

/-- The first half of the columns of a [1024, 1024] value. -/
theorem lo_apply (U : FVec Ideal S1024x1024 .f32) (h : S1024x1024.Slices ![0, 0] S1024x512) (r : Fin 1024) (k : Fin 512) :
    extractStridedSlice S1024x512 ![0, 0] U h (ix2 r k) = U (ix2 r (lo k)) :=
  slice2_axis1_apply 0 U h r k (lo k) (by show k.val = 0 + k.val; omega)

/-- The second half of the columns of a [1024, 1024] value. -/
theorem hi_apply (U : FVec Ideal S1024x1024 .f32) (h : S1024x1024.Slices ![0, 512] S1024x512) (r : Fin 1024) (k : Fin 512) :
    extractStridedSlice S1024x512 ![0, 512] U h (ix2 r k) = U (ix2 r (hi k)) :=
  slice2_axis1_apply 512 U h r k (hi k) rfl

/-! ## The two matrix products, each into a zero accumulator -/

theorem mm1_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm1_lhs1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem mm1_rhs0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem mm1_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024, 1024] by [1024, 1024] product at (r, c): the sum over the shared index. -/
theorem mm1_apply (A : FVec Ideal S1024x1024 .bf16) (B : FVec Ideal S1024x1024 .bf16) (r c : Fin 1024) :
    matmul dot_S1024x1024_S1024x1024_S1024x1024_1_0_0_1_n_n none A B (constant S1024x1024 .f32 0x00000000#32) (ix2 r c)
      = ∑ k : Fin 1024, A (ix2 r k) * B (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c) ((contrEquiv1 dot_S1024x1024_S1024x1024_S1024x1024_1_0_0_1_n_n 1024 rfl rfl).symm k) = ix2 r k := funext fun a => Fin.ext (by
    match a with
    | ⟨0, _⟩ => exact mm1_lhs0 _ _
    | ⟨1, _⟩ => exact (mm1_lhs1 _ _).trans hk)
  have er : dot_S1024x1024_S1024x1024_S1024x1024_1_0_0_1_n_n.rhsIdx (ix2 r c) ((contrEquiv1 dot_S1024x1024_S1024x1024_S1024x1024_1_0_0_1_n_n 1024 rfl rfl).symm k) = ix2 k c := funext fun a => Fin.ext (by
    match a with
    | ⟨0, _⟩ => exact (mm1_rhs0 _ _).trans hk
    | ⟨1, _⟩ => exact mm1_rhs1 _ _)
  rw [el, er]

theorem mm2_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mm2_lhs1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem mm2_rhs0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem mm2_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A [1024, 512] by [512, 1024] product at (r, c): the sum over the shared index. -/
theorem mm2_apply (A : FVec Ideal S1024x512 .bf16) (B : FVec Ideal S512x1024 .bf16) (r c : Fin 1024) :
    matmul dot_S1024x512_S512x1024_S1024x1024_1_0_0_1_n_n none A B (constant S1024x1024 .f32 0x00000000#32) (ix2 r c)
      = ∑ k : Fin 512, A (ix2 r k) * B (ix2 k c) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r c) ((contrEquiv1 dot_S1024x512_S512x1024_S1024x1024_1_0_0_1_n_n 512 rfl rfl).symm k) = ix2 r k := funext fun a => Fin.ext (by
    match a with
    | ⟨0, _⟩ => exact mm2_lhs0 _ _
    | ⟨1, _⟩ => exact (mm2_lhs1 _ _).trans hk)
  have er : dot_S1024x512_S512x1024_S1024x1024_1_0_0_1_n_n.rhsIdx (ix2 r c) ((contrEquiv1 dot_S1024x512_S512x1024_S1024x1024_1_0_0_1_n_n 512 rfl rfl).symm k) = ix2 k c := funext fun a => Fin.ext (by
    match a with
    | ⟨0, _⟩ => exact (mm2_rhs0 _ _).trans hk
    | ⟨1, _⟩ => exact mm2_rhs1 _ _)
  rw [el, er]

/-! ## The stored value -/

/-- A pointwise logistic read at an index. -/
theorem logistic_apply {S : Shape} {φ : FTy} (a : FVec Ideal S φ) (i : S.Idx) : logistic a i = Ideal.logistic (a i) := rfl

section Payload

variable (v0 : FVec Ideal S1024x1024 .bf16) (v2 : FVec Ideal S1024x32 .bf16) (v9 : FVec Ideal S1x1024x1024 .bf16)
  (v18 : FVec Ideal S1x512x1024 .bf16)

/-- Each row's 32 scales, each repeated over its 32 columns. -/
def scaleFull : FVec Ideal S1024x1024 .bf16 :=
  shapeCast S1024x1024 (broadcastTo S1024x32x32 (shapeCast S1024x32x1 (shapeCast S1024x32x1
    (shapeCast S1024x32 v2 shapeCasts_S1024x32_S1024x32) shapeCasts_S1024x32_S1024x32x1) shapeCasts_S1024x32x1_S1024x32x1)
    broadcasts_S1024x32x1_S1024x32x32) shapeCasts_S1024x32x32_S1024x1024

/-- The dequantized rows. -/
def scaled : FVec Ideal S1024x1024 .bf16 :=
  mulf (shapeCast S1024x1024 v0 shapeCasts_S1024x1024_S1024x1024 : FVec Ideal S1024x1024 .bf16) (scaleFull v2)

/-- The first weight block with its unit axis dropped. -/
def w13Blk : FVec Ideal S1024x1024 .bf16 := shapeCast S1024x1024 v9 shapeCasts_S1x1024x1024_S1024x1024

/-- The second weight block with its unit axis dropped. -/
def w2Blk : FVec Ideal S512x1024 .bf16 := shapeCast S512x1024 v18 shapeCasts_S1x512x1024_S512x1024

/-- The scaled rows contracted with the first weight block: the up projection of the 1024 rows held. -/
def upBlk : FVec Ideal S1024x1024 .f32 :=
  matmul dot_S1024x1024_S1024x1024_S1024x1024_1_0_0_1_n_n none (scaled v0 v2) (w13Blk v9) (constant S1024x1024 .f32 0x00000000#32)

/-- The first half of the up projection's columns. -/
def upLo : FVec Ideal S1024x512 .f32 :=
  extractStridedSlice S1024x512 ![0, 0] (upBlk v0 v2 v9) slices_S1024x1024_o0_0_S1024x512

/-- The second half of the up projection's columns. -/
def upHi : FVec Ideal S1024x512 .f32 :=
  extractStridedSlice S1024x512 ![0, 512] (upBlk v0 v2 v9) slices_S1024x1024_o0_512_S1024x512

/-- The gated hidden block: the first half of the up projection through x · logistic x, times the second half. -/
def hidBlk : FVec Ideal S1024x512 .bf16 :=
  truncf .bf16 (mulf (mulf (upLo v0 v2 v9) (logistic (upLo v0 v2 v9))) (upHi v0 v2 v9) : FVec Ideal S1024x512 .f32) bitsLt_bf16_f32

/-- The body's stored value is the hidden block contracted with the second weight block. -/
theorem pay_eq : k0_pay1 (F := Ideal) v0 v2 v9 v18
    = matmul dot_S1024x512_S512x1024_S1024x1024_1_0_0_1_n_n none (hidBlk v0 v2 v9) (w2Blk v18) (constant S1024x1024 .f32 0x00000000#32) := rfl

variable (x : (⟨2, ![8192, 1024]⟩ : Shape).Idx → EReal) (s : (⟨2, ![8192, 32]⟩ : Shape).Idx → EReal)
  (w13 : (⟨3, ![8, 1024, 1024]⟩ : Shape).Idx → EReal) (w2 : (⟨3, ![8, 1024, 512]⟩ : Shape).Idx → EReal) (e : Fin 8)

/-- When the loaded blocks are expert `e`'s rows of the activations and scales and its transposed first weight,
    the up-projection block is the specification's. -/
theorem upBlk_apply (h0 : ∀ (r : Fin 1024) (d : Fin 1024), v0 (ix2 r d) = x (ix2 (tok e r) d))
    (h2 : ∀ (r : Fin 1024) (b : Fin 32), v2 (ix2 r b) = s (ix2 (tok e r) b))
    (h9 : ∀ (d j : Fin 1024), v9 (ix3 (0 : Fin 1) d j) = w13 (ix3 e j d)) (r j : Fin 1024) :
    upBlk v0 v2 v9 (ix2 r j) = up x s w13 e r j := by
  unfold upBlk up
  rw [mm1_apply]
  refine Finset.sum_congr rfl fun d _ => ?_
  unfold scaled scaleFull w13Blk
  rw [mulf_apply, shapeCast_self, repeat_apply, shapeCast_1ab_ab_apply, h0, h2, h9]
  rfl

/-- … and the hidden block is the specification's gated value. -/
theorem hidBlk_apply (h0 : ∀ (r : Fin 1024) (d : Fin 1024), v0 (ix2 r d) = x (ix2 (tok e r) d))
    (h2 : ∀ (r : Fin 1024) (b : Fin 32), v2 (ix2 r b) = s (ix2 (tok e r) b))
    (h9 : ∀ (d j : Fin 1024), v9 (ix3 (0 : Fin 1) d j) = w13 (ix3 e j d)) (r : Fin 1024) (h : Fin 512) :
    hidBlk v0 v2 v9 (ix2 r h) = gated x s w13 e r h := by
  unfold hidBlk gated upLo upHi
  rw [truncf_apply, mulf_apply, mulf_apply, logistic_apply, lo_apply, hi_apply,
    upBlk_apply v0 v2 v9 x s w13 e h0 h2 h9, upBlk_apply v0 v2 v9 x s w13 e h0 h2 h9]

/-- The stored value at (r, c), when moreover the fourth block is expert `e`'s transposed second weight: the
    specification's down projection. -/
theorem pay_apply (h0 : ∀ (r : Fin 1024) (d : Fin 1024), v0 (ix2 r d) = x (ix2 (tok e r) d))
    (h2 : ∀ (r : Fin 1024) (b : Fin 32), v2 (ix2 r b) = s (ix2 (tok e r) b))
    (h9 : ∀ (d j : Fin 1024), v9 (ix3 (0 : Fin 1) d j) = w13 (ix3 e j d))
    (h18 : ∀ (h : Fin 512) (c : Fin 1024), v18 (ix3 (0 : Fin 1) h c) = w2 (ix3 e c h)) (r c : Fin 1024) :
    k0_pay1 (F := Ideal) v0 v2 v9 v18 (ix2 r c) = down x s w13 w2 e r c := by
  rw [pay_eq, mm2_apply]
  unfold down
  refine Finset.sum_congr rfl fun h _ => ?_
  unfold w2Blk
  rw [hidBlk_apply v0 v2 v9 x s w13 e h0 h2 h9, shapeCast_1ab_ab_apply, h18]

end Payload

end Cert.KernelIdeal.Pay

end
-- ==== Proof.Blocks.lean ====
/-
  What the region finds, and what each window's block holds.
  Before the region the host narrows the activations and scales (the identity on the extended reals) and swaps the
  last two axes of both weights, so the array behind the third window holds w13[e, j, d] at (e, d, j) and the one behind
  the fourth holds w2[e, c, h] at (e, h, c). At grid point t every window's block index is (t, 0, …): block t of the
  activations and scales is expert t's 1024 rows, block t of a weight is expert t's matrix behind a unit axis.
-/
import proofs.«147050_j37014028157134_2_alg».proof.Proof.Gen.KernelIdeal.Frame
import proofs.«147050_j37014028157134_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.ExpertFFN
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The arrays behind the windows -/

/-- The narrowed activations are the activations. -/
theorem V_x (c : Dev nD) : (V m c main_v0 : S8192x1024.Idx → EReal) = m ((c : Thread nD τ).loc main_arg0) := by
  dsimp only [Gen.V, Gen.hostOps0]; after_results; rfl

/-- The narrowed scales are the scales. -/
theorem V_s (c : Dev nD) : (V m c main_v1 : S8192x32.Idx → EReal) = m ((c : Thread nD τ).loc main_arg1) := by
  dsimp only [Gen.V, Gen.hostOps0]; after_results; rfl

/-- The first weight as the region finds it: the last two axes swapped. -/
theorem V_w13 (c : Dev nD) : (V m c main_v3 : S8x1024x1024.Idx → EReal)
    = transpose S8x1024x1024 [0, 2, 1] (m ((c : Thread nD τ).loc main_arg4) : S8x1024x1024.Idx → EReal) transposes_S8x1024x1024_S8x1024x1024_0_2_1 := by
  dsimp only [Gen.V, Gen.hostOps0]; after_results; rfl

/-- The second weight as the region finds it: the last two axes swapped. -/
theorem V_w2 (c : Dev nD) : (V m c main_v5 : S8x512x1024.Idx → EReal)
    = transpose S8x512x1024 [0, 2, 1] (m ((c : Thread nD τ).loc main_arg5) : S8x1024x512.Idx → EReal) transposes_S8x1024x512_S8x512x1024_0_2_1 := by
  dsimp only [Gen.V, Gen.hostOps0]; after_results; rfl

/-! ## The index maps, decided over the eight grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The expert a grid point works on. -/
def expert (t : Fin cfg0.N) : Fin 8 := ⟨t.val, by have := t.isLt; have h : cfg0.N = 8 := N_0; omega⟩

/-! ## The blocks -/

/-- The activations' block at point t: expert t's rows. -/
theorem blk_x (c : Dev nD) (t : Fin cfg0.N) (r : Fin 1024) (d : Fin 1024) :
    (iblk m c 0 t : FVec Ideal S1024x1024 .bf16) (ix2 r d)
      = (m ((c : Thread nD τ).loc main_arg0) : S8192x1024.Idx → EReal) (ix2 (tok (expert t) r) d) := by
  obtain ⟨i0, i1, -⟩ := idx_facts t
  unfold iblk
  rw [View.read_apply]
  show (V m c main_v0 : S8192x1024.Idx → EReal) _ = _
  rw [V_x]
  congr 1
  funext a
  apply Fin.ext
  match a with
  | ⟨0, _⟩ => show win0_0.index t (0 : Fin 2) * 1024 + 1 * r.val = t.val * 1024 + r.val; rw [i0]; omega
  | ⟨1, _⟩ => show win0_0.index t (1 : Fin 2) * 1024 + 1 * d.val = d.val; rw [i1]; omega

/-- The scales' block at point t: expert t's rows. -/
theorem blk_s (c : Dev nD) (t : Fin cfg0.N) (r : Fin 1024) (b : Fin 32) :
    (iblk m c 1 t : FVec Ideal S1024x32 .bf16) (ix2 r b)
      = (m ((c : Thread nD τ).loc main_arg1) : S8192x32.Idx → EReal) (ix2 (tok (expert t) r) b) := by
  obtain ⟨-, -, i0, i1, -⟩ := idx_facts t
  unfold iblk
  rw [View.read_apply]
  show (V m c main_v1 : S8192x32.Idx → EReal) _ = _
  rw [V_s]
  congr 1
  funext a
  apply Fin.ext
  match a with
  | ⟨0, _⟩ => show win0_1.index t (0 : Fin 2) * 1024 + 1 * r.val = t.val * 1024 + r.val; rw [i0]; omega
  | ⟨1, _⟩ => show win0_1.index t (1 : Fin 2) * 32 + 1 * b.val = b.val; rw [i1]; omega

/-- The first weight's block at point t, at (0, d, j): w13[t, j, d]. -/
theorem blk_w13 (c : Dev nD) (t : Fin cfg0.N) (d j : Fin 1024) :
    (iblk m c 2 t : FVec Ideal S1x1024x1024 .bf16) (ix3 (0 : Fin 1) d j)
      = (m ((c : Thread nD τ).loc main_arg4) : S8x1024x1024.Idx → EReal) (ix3 (expert t) j d) := by
  obtain ⟨-, -, -, -, i0, i1, i2, -⟩ := idx_facts t
  unfold iblk
  rw [View.read_apply]
  show (V m c main_v3 : S8x1024x1024.Idx → EReal) _ = _
  rw [V_w13]
  refine Eq.trans (congrArg _ ?_) (transpose_ix3_021_apply _ transposes_S8x1024x1024_S8x1024x1024_0_2_1 (expert t) d j)
  funext a
  apply Fin.ext
  match a with
  | ⟨0, _⟩ => show win0_2.index t (0 : Fin 3) * 1 + 1 * 0 = t.val; rw [i0]; omega
  | ⟨1, _⟩ => show win0_2.index t (1 : Fin 3) * 1024 + 1 * d.val = d.val; rw [i1]; omega
  | ⟨2, _⟩ => show win0_2.index t (2 : Fin 3) * 1024 + 1 * j.val = j.val; rw [i2]; omega

/-- The second weight's block at point t, at (0, h, c): w2[t, c, h]. -/
theorem blk_w2 (c : Dev nD) (t : Fin cfg0.N) (h : Fin 512) (k : Fin 1024) :
    (iblk m c 3 t : FVec Ideal S1x512x1024 .bf16) (ix3 (0 : Fin 1) h k)
      = (m ((c : Thread nD τ).loc main_arg5) : S8x1024x512.Idx → EReal) (ix3 (expert t) k h) := by
  obtain ⟨-, -, -, -, -, -, -, i0, i1, i2, -⟩ := idx_facts t
  unfold iblk
  rw [View.read_apply]
  show (V m c main_v5 : S8x512x1024.Idx → EReal) _ = _
  rw [V_w2]
  refine Eq.trans (congrArg _ ?_) (transpose_ix3_021_apply _ transposes_S8x1024x512_S8x512x1024_0_2_1 (expert t) h k)
  funext a
  apply Fin.ext
  match a with
  | ⟨0, _⟩ => show win0_3.index t (0 : Fin 3) * 1 + 1 * 0 = t.val; rw [i0]; omega
  | ⟨1, _⟩ => show win0_3.index t (1 : Fin 3) * 512 + 1 * h.val = h.val; rw [i1]; omega
  | ⟨2, _⟩ => show win0_3.index t (2 : Fin 3) * 1024 + 1 * k.val = k.val; rw [i2]; omega

end Cert.KernelIdeal.Blocks

end
-- ==== Proof.KernelValue.lean ====
/-
  The kernel's result array.
  Grid point t writes back block (t, 0) of the [8192, 1024] result: 1024 whole rows. What it writes is the body's one
  stored value over the point's four blocks, which at (r, c) is the down projection of row r of expert t — the
  specification at row 1024·t + r. The eight blocks are the eight groups of 1024 rows, so every index of the result is
  in exactly the block of its row's expert, and the array ends holding the specification everywhere.
-/
import proofs.«147050_j37014028157134_2_alg».proof.Proof.Gen.KernelIdeal.Value
import proofs.«147050_j37014028157134_2_alg».proof.Proof.KernelPayload
import proofs.«147050_j37014028157134_2_alg».proof.Proof.Blocks

noncomputable section

namespace Cert.KernelIdeal.Hand

open Cert.KernelIdeal Cert.KernelIdeal.Gen Cert.KernelIdeal.Value Cert.ExpertFFN Cert.KernelIdeal.Blocks Cert.KernelIdeal.Pay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The specification of the four float arguments as launched. -/
abbrev spec (c : Dev nD) : Buf (Elt Ideal) ((c : Thread nD τ).loc main_v6) :=
  result (m ((c : Thread nD τ).loc main_arg0)) (m ((c : Thread nD τ).loc main_arg1))
    (m ((c : Thread nD τ).loc main_arg4)) (m ((c : Thread nD τ).loc main_arg5))

/-- The body's stored value over point t's blocks, at a block index, is the specification at the array index under it. -/
theorem stored_apply (c : Dev nD) (t : Fin cfg0.N) (y : S1024x1024.Idx) :
    k0_pay1 (F := Ideal) (iblk m c 0 t) (iblk m c 1 t) (iblk m c 2 t) (iblk m c 3 t) y
      = spec m c (((cfg0.win 4).blk t).view.emb y) := by
  obtain ⟨r, k, rfl⟩ : ∃ (r : Fin 1024) (k : Fin 1024), y = ix2 r k := ⟨y 0, y 1, eq_ix2 y⟩
  obtain ⟨-, -, -, -, -, -, -, -, -, -, i0, i1⟩ := idx_facts t
  have hemb : ((cfg0.win 4).blk t).view.emb (ix2 r k) = (ix2 (tok (expert t) r) k : S8192x1024.Idx) := by
    funext a
    apply Fin.ext
    match a with
    | ⟨0, _⟩ => show win0_4.index t (0 : Fin 2) * 1024 + 1 * r.val = t.val * 1024 + r.val; rw [i0]; omega
    | ⟨1, _⟩ => show win0_4.index t (1 : Fin 2) * 1024 + 1 * k.val = k.val; rw [i1]; omega
  rw [hemb]
  refine (pay_apply (iblk m c 0 t : FVec Ideal S1024x1024 .bf16) (iblk m c 1 t : FVec Ideal S1024x32 .bf16)
    (iblk m c 2 t : FVec Ideal S1x1024x1024 .bf16) (iblk m c 3 t : FVec Ideal S1x512x1024 .bf16)
    (m ((c : Thread nD τ).loc main_arg0)) (m ((c : Thread nD τ).loc main_arg1))
    (m ((c : Thread nD τ).loc main_arg4)) (m ((c : Thread nD τ).loc main_arg5)) (expert t)
    (blk_x m c t) (blk_s m c t) (blk_w13 m c t) (blk_w2 m c t) r k).trans ?_
  exact (result_tok _ _ _ _ (expert t) r k).symm

/-- What point t writes back is block t of the specification. -/
theorem flushed_eq (c : Dev nD) (t : Fin cfg0.N) :
    (dats m 0 c).flushed 4 t = ((cfg0.win 4).blk t).view.read (Elt Ideal) (spec m c) := by
  rw [Value.flushed4]
  unfold out0_4
  rw [View.canon_unit_zero hz2]
  simp only [View.ld_unit_zero (S := S1024x1024) hz2, View.ld_unit_zero (S := S1024x32) hz2,
    View.ld_unit_zero (S := S1x1024x1024) hz3, View.ld_unit_zero (S := S1x512x1024) hz3]
  funext y
  exact stored_apply m c t y

/-- An index of the result is in point t's block iff each coordinate is in the block's range on its axis. -/
theorem mem_blk (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v6).slice (win0_4.rect t)).set ↔ _
  rw [View.set_slice_whole, Rect.mem_set_unit]
  exact Iff.rfl

/-- Every index of the result is in the block of its row's expert. -/
theorem cover (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, -, -, i0, i1⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; rw [i0, ht]; omega
  | ⟨1, _⟩ => show win0_4.index t (1 : Fin 2) * 1024 ≤ (i 1).val ∧ (i 1).val < win0_4.index t (1 : Fin 2) * 1024 + 1024; rw [i1]; omega

/-- The result array after the run is the specification. -/
theorem final (c : Dev nD) : (dats m 0 c).arrAt 4 cfg0.N = spec m c :=
  (dats m 0 c).arrAt_eq_of_cover 4 (spec m c) (fun t _ => flushed_eq m c t) cover

/-- The run, read: the result at the specification of the arguments, the arguments unchanged. -/
theorem run : θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Hand

end
-- ==== Proof.lean ====
/-
  A grouped expert feed-forward on block-scaled activations, against its plain reference, on the extended reals.
  Eight experts own 1024 consecutive tokens each. For a token row t of expert e = t / 1024:
    deq[t, d]   = x[t, d] · s[t, d / 32]                          (one scale per 32 columns)
    up[t, j]    = Σ_d deq[t, d] · w13[e, j, d]                    (j < 1024)
    gated[t, h] = up[t, h] · logistic(up[t, h]) · up[t, 512 + h]  (h < 512, logistic a = 1 / (1 + e^(-a)))
    out[t, c]   = Σ_h gated[t, h] · w2[e, c, h]
  The kernel walks the experts one grid point at a time over weights whose last two axes were swapped beforehand and
  computes each sum as a matrix product into a zero accumulator; the reference regroups the rows as [8, 1024, ·] and
  contracts over the last axis of both operands, spelling SiLU as x · (1 / (1 + e^(-x))). Read at an index the two are
  the same sums of the same products in the same order (Proof/Spec.lean states them once; Proof/RefIsSpec.lean and
  Proof/KernelPayload.lean, Proof/Blocks.lean, Proof/KernelValue.lean read the two programs as that statement), so
  the equality holds at every extended real and the finiteness of the inputs is never used. The idealization
  rewrote no operation, so there is nothing to preserve beyond the text itself.
-/
import proofs.«147050_j37014028157134_2_alg».proof.Defs
import proofs.«147050_j37014028157134_2_alg».proof.Proof.Gen.Kernel
import proofs.«147050_j37014028157134_2_alg».proof.Proof.Gen.Kernel.Skeleton
import proofs.«147050_j37014028157134_2_alg».proof.Proof.Gen.Kernel.Launch
import proofs.«147050_j37014028157134_2_alg».proof.Proof.Gen.Kernel.Points
import proofs.«147050_j37014028157134_2_alg».proof.Proof.Gen.Kernel.Frame
import proofs.«147050_j37014028157134_2_alg».proof.Proof.Gen.KernelIdeal
import proofs.«147050_j37014028157134_2_alg».proof.Proof.Gen.KernelIdeal.Skeleton
import proofs.«147050_j37014028157134_2_alg».proof.Proof.Gen.KernelIdeal.Launch
import proofs.«147050_j37014028157134_2_alg».proof.Proof.Gen.KernelIdeal.Points
import proofs.«147050_j37014028157134_2_alg».proof.Proof.Gen.KernelIdeal.Frame
import proofs.«147050_j37014028157134_2_alg».proof.Proof.Gen.ReferenceIdeal
import proofs.«147050_j37014028157134_2_alg».proof.Proof.Gen.Pre_finite_inputs
import proofs.«147050_j37014028157134_2_alg».proof.Proof.Gen.KernelIdeal.Value
import proofs.«147050_j37014028157134_2_alg».proof.Proof.Gen.ReferenceIdeal.Run
import proofs.«147050_j37014028157134_2_alg».proof.Proof.Gen.ReferenceIdeal.Read
import proofs.«147050_j37014028157134_2_alg».proof.Proof.RefIsSpec
import proofs.«147050_j37014028157134_2_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the result array at the specification of those arguments. -/
theorem algebraic : Cert.algebraic_KernelIdeal_ReferenceIdeal := by
  intro m ρ m' ρ' _ hagree
  refine ⟨fun c => Cert.KernelIdeal.Hand.spec m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v10 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
    = Cert.KernelIdeal.Hand.spec m c
  rw [Cert.ReferenceIdeal.RefValue.result_eq, (hagree c).1, (hagree c).2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
